-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8 : Shape := ⟨1, ![8]⟩
abbrev S8x2048x4096 : Shape := ⟨3, ![8, 2048, 4096]⟩
abbrev S8x4096x2048 : Shape := ⟨3, ![8, 4096, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn_part1 {F : FTy → Type} [FloatOps F] (main_v13 : IVec S_ 1) (main_v16 : IVec S8x4096x2048 1) : IVec S_ 1 :=
  let main_c_5 : IVec S_ 1 := constantI S_ 1 1#1
  let main_v17 : IVec S_ 1 := (fun x v => Host.reduce IntOp.andi x v reducesTo_S8x4096x2048_S_d0_1_2 h_S_) main_v16 main_c_5
  let main_v18 : IVec S_ 1 := andi main_v13 main_v17
  main_v18

def fn {F : FTy → Type} [FloatOps F] (main_arg0 : FVec F S8x2048x2048 .f32) (main_arg1 : IVec S8 32) (main_arg2 : FVec F S8x2048x4096 .f32) (main_arg3 : FVec F S8x2048x4096 .f32) (main_arg4 : FVec F S8x4096x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x4096 .f32 := Host.absf main_arg2
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x4096 .f32 := Host.absf main_arg3
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  let main_v14 : FVec F S8x4096x2048 .f32 := Host.absf main_arg4
  let main_cst_4 : FVec F S_ .f32 := constant S_ .f32 0x7F800000#32
  let main_v15 : FVec F S8x4096x2048 .f32 := broadcastInDim S8x4096x2048 ![] bcast_S_S8x4096x2048 main_cst_4
  let main_v16 : IVec S8x4096x2048 1 := cmpf .olt main_v14 main_v15
  fn_part1 (F := F) main_v13 main_v16
-- ==== Kernel.lean ====
abbrev S8x2048x2048 : Shape := ⟨3, ![8, 2048, 2048]⟩
abbrev S8 : Shape := ⟨1, ![8]⟩
abbrev S8x2048x4096 : Shape := ⟨3, ![8, 2048, 4096]⟩
abbrev S8x4096x2048 : Shape := ⟨3, ![8, 4096, 2048]⟩
abbrev S1x1024x2048 : Shape := ⟨3, ![1, 1024, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S8, .i32⟩
  | .hbm, ⟨2, _⟩ => ⟨S8x2048x4096, .f32⟩
  | .hbm, ⟨3, _⟩ => ⟨S8x2048x4096, .f32⟩
  | .hbm, ⟨4, _⟩ => ⟨S8x4096x2048, .f32⟩
  | .hbm, ⟨5, _⟩ => ⟨S8x2048x2048, .bf16⟩
  | .hbm, ⟨6, _⟩ => ⟨S8x2048x4096, .bf16⟩
  | .hbm, ⟨7, _⟩ => ⟨S8x2048x4096, .bf16⟩
  | .hbm, ⟨8, _⟩ => ⟨S8x4096x2048, .bf16⟩
  | .hbm, ⟨9, _⟩ => ⟨S8x2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x1024x2048, .f32⟩
  | .local _ .vmem, ⟨9, _⟩ => ⟨S1x1024x2048, .f32⟩
  | .local _ .vmem, ⟨10, _⟩ => ⟨S1024x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v23 : BitVec 1 := Scalar.cmpi .eq arg2 c15_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S1024x2048_S1x1024x2048 : S1024x2048.ShapeCasts S1x1024x2048
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .bf16 = 32 ∨ (Rect.block (s := S8x2048x2048) S1x1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x4096.size a
  hwx0_1 : ∀ i : grid0.Coords, EltTy.bits .bf16 = 32 ∨ (Rect.block (s := S8x2048x4096) S1x2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x4096.size a
  hwx0_2 : ∀ i : grid0.Coords, EltTy.bits .bf16 = 32 ∨ (Rect.block (s := S8x2048x4096) S1x2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x4096x2048.size a
  hwx0_3 : ∀ i : grid0.Coords, EltTy.bits .bf16 = 32 ∨ (Rect.block (s := S8x4096x2048) S1x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S8x2048x2048.size a
  hwx0_4 : ∀ i : grid0.Coords, EltTy.bits .f32 = 32 ∨ (Rect.block (s := S8x2048x2048) S1x1024x2048.size (cc0_transform_4 i) (hinb0_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x2048 : Shape := ⟨3, ![8, 2048, 2048]⟩
abbrev S8 : Shape := ⟨1, ![8]⟩
abbrev S8x2048x4096 : Shape := ⟨3, ![8, 2048, 4096]⟩
abbrev S8x4096x2048 : Shape := ⟨3, ![8, 4096, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8, .i32⟩
  | .hbm, ⟨2, _⟩ => ⟨S8x2048x4096, .f32⟩
  | .hbm, ⟨3, _⟩ => ⟨S8x2048x4096, .f32⟩
  | .hbm, ⟨4, _⟩ => ⟨S8x4096x2048, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x2048_S8x2048x4096_S8x2048x4096_2_1_1_2_0_0_wf : DotDims.WF S8x2048x2048 S8x2048x4096 S8x2048x4096 [2] [1] [1] [2] [0] [0]
  dot_S8x2048x4096_S8x4096x2048_S8x2048x2048_2_1_1_2_0_0_wf : DotDims.WF S8x2048x4096 S8x4096x2048 S8x2048x2048 [2] [1] [1] [2] [0] [0]

variable [Facts₀]

def dot_S8x2048x2048_S8x2048x4096_S8x2048x4096_2_1_1_2_0_0 : DotDims S8x2048x2048 S8x2048x4096 S8x2048x4096 where
  lhsContracting := [2]
  rhsContracting := [1]
  lhsNonContracting := [1]
  rhsNonContracting := [2]
  lhsBatch := [0]
  rhsBatch := [0]
  wf := dot_S8x2048x2048_S8x2048x4096_S8x2048x4096_2_1_1_2_0_0_wf
def dot_S8x2048x4096_S8x4096x2048_S8x2048x2048_2_1_1_2_0_0 : DotDims S8x2048x4096 S8x4096x2048 S8x2048x2048 where
  lhsContracting := [2]
  rhsContracting := [1]
  lhsNonContracting := [1]
  rhsNonContracting := [2]
  lhsBatch := [0]
  rhsBatch := [0]
  wf := dot_S8x2048x4096_S8x4096x2048_S8x2048x2048_2_1_1_2_0_0_wf

class Facts : Prop extends Facts₀ where

variable [Facts]
-- ==== Proof.CaseValues.lean ====
/-
  What each control case of the kernel body leaves behind, as values.

  The body runs in one of three ways, by the position `s` of the point on the grid's last axis (the axis that
  walks the sixteen blocks of the hidden dimension): at `s = 0` it zeroes the accumulator and adds the first block's
  contribution; at `0 < s < 15` it adds a block's contribution to what the point before left; at `s = 15` it adds the
  last block's contribution and copies the accumulator into the output block. In every case the accumulator ends
  holding `step x gw iw ow acc` — the body's one arithmetic term, `acc + (silu (x·gw) ⊙ (x·iw)) · ow` of the point's
  four input blocks — with `acc` the zero block at `s = 0` and the previous contents otherwise; and at `s = 15`
  the output block is that accumulator, re-laid with a leading unit axis.
-/
import proofs.«132540_j46540265619726_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Carried

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero block the first point of a run stores into the accumulator. -/
abbrev zeroAcc : Vec F S1024x2048 .f32 := k0_pay1 (F := F)

/-- One point's update of the accumulator: the previous contents plus the point's contribution. -/
abbrev step (x0 : Vec F S1x1024x2048 .bf16) (x1 x2 : Vec F S1x2048x256 .bf16) (x3 : Vec F S1x256x2048 .bf16)
    (acc : Vec F S1024x2048 .f32) : Vec F S1024x2048 .f32 := k0_pay2 x0 x1 x2 acc x3

/-- At the first point of a run the accumulator is zeroed, read back, and updated: it ends at the update of the zero block. -/
theorem acc_first (c : Dev nD) (i : grid0.Coords) (a3 : Memref sig .tc .vmem S1x1024x2048 .bf16) (h3 : a3.IsWhole) (a4 : Memref sig .tc .vmem S1x2048x256 .bf16) (h4 : a4.IsWhole) (a5 : Memref sig .tc .vmem S1x2048x256 .bf16) (h5 : a5.IsWhole) (a6 : Memref sig .tc .vmem S1x256x2048 .bf16) (h6 : a6.IsWhole) (a7 : Memref sig .tc .vmem S1x1024x2048 .f32) (h7 : a7.IsWhole) (a8 : Memref sig .tc .vmem S1024x2048 .f32) (h8 : a8.IsWhole) (hc0 : cond0_0 i) (hc1 : ¬cond0_1 i)
    (x0 : Vec F S1x1024x2048 .bf16) (x1 : Vec F S1x2048x256 .bf16) (x2 : Vec F S1x2048x256 .bf16) (x3 : Vec F S1x256x2048 .bf16) :
    sout0_A_0 c i a3 h3 a4 h4 a5 h5 a6 h6 a7 h7 a8 h8 hc0 hc1 x0 x1 x2 x3 = step x0 x1 x2 x3 zeroAcc := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x2048) hz2, View.readCov_unit_zero (S := S1024x2048) _ hz2]
  simp only [View.readAt_eq_ld, h3.read_unread, h4.read_unread, h5.read_unread, h6.read_unread, h8.read_unread,
    View.ld_unit_zero (S := S1x1024x2048) hz3, View.ld_unit_zero (S := S1x2048x256) hz3,
    View.ld_unit_zero (S := S1x256x2048) hz3, View.ld_unit_zero (S := S1024x2048) hz2]

/-- At a middle point the accumulator ends at the update of what the point before left. -/
theorem acc_middle (c : Dev nD) (i : grid0.Coords) (a3 : Memref sig .tc .vmem S1x1024x2048 .bf16) (h3 : a3.IsWhole) (a4 : Memref sig .tc .vmem S1x2048x256 .bf16) (h4 : a4.IsWhole) (a5 : Memref sig .tc .vmem S1x2048x256 .bf16) (h5 : a5.IsWhole) (a6 : Memref sig .tc .vmem S1x256x2048 .bf16) (h6 : a6.IsWhole) (a7 : Memref sig .tc .vmem S1x1024x2048 .f32) (h7 : a7.IsWhole) (a8 : Memref sig .tc .vmem S1024x2048 .f32) (h8 : a8.IsWhole) (hc0 : ¬cond0_0 i) (hc1 : ¬cond0_1 i)
    (x0 : Vec F S1x1024x2048 .bf16) (x1 : Vec F S1x2048x256 .bf16) (x2 : Vec F S1x2048x256 .bf16) (x3 : Vec F S1x256x2048 .bf16) (xs : Vec F S1024x2048 .f32) :
    sout0_B_0 c i a3 h3 a4 h4 a5 h5 a6 h6 a7 h7 a8 h8 hc0 hc1 x0 x1 x2 x3 xs = step x0 x1 x2 x3 xs := by
  unfold sout0_B_0
  rw [View.read_writes_eq_canon _ _ _ (scover0_B_0 c i a3 h3 a4 h4 a5 h5 a6 h6 a7 h7 a8 h8 hc0 hc1 x0 x1 x2 x3 xs)]
  unfold kernelRun0_B
  dsimp only
  rw [View.canon_unit_zero hz2]
  simp only [View.readAt_eq_ld, h3.read_unread, h4.read_unread, h5.read_unread, h6.read_unread, h8.read_unread,
    View.ld_unit_zero (S := S1x1024x2048) hz3, View.ld_unit_zero (S := S1x2048x256) hz3,
    View.ld_unit_zero (S := S1x256x2048) hz3, View.ld_unit_zero (S := S1024x2048) hz2]

/-- At the last point of a run likewise; -/
theorem acc_last (c : Dev nD) (i : grid0.Coords) (a3 : Memref sig .tc .vmem S1x1024x2048 .bf16) (h3 : a3.IsWhole) (a4 : Memref sig .tc .vmem S1x2048x256 .bf16) (h4 : a4.IsWhole) (a5 : Memref sig .tc .vmem S1x2048x256 .bf16) (h5 : a5.IsWhole) (a6 : Memref sig .tc .vmem S1x256x2048 .bf16) (h6 : a6.IsWhole) (a7 : Memref sig .tc .vmem S1x1024x2048 .f32) (h7 : a7.IsWhole) (a8 : Memref sig .tc .vmem S1024x2048 .f32) (h8 : a8.IsWhole) (hc0 : ¬cond0_0 i) (hc1 : cond0_1 i)
    (x0 : Vec F S1x1024x2048 .bf16) (x1 : Vec F S1x2048x256 .bf16) (x2 : Vec F S1x2048x256 .bf16) (x3 : Vec F S1x256x2048 .bf16) (xs : Vec F S1024x2048 .f32) :
    sout0_C_0 c i a3 h3 a4 h4 a5 h5 a6 h6 a7 h7 a8 h8 hc0 hc1 x0 x1 x2 x3 xs = step x0 x1 x2 x3 xs := by
  unfold sout0_C_0
  rw [View.read_writes_eq_canon _ _ _ (scover0_C_0 c i a3 h3 a4 h4 a5 h5 a6 h6 a7 h7 a8 h8 hc0 hc1 x0 x1 x2 x3 xs)]
  unfold kernelRun0_C
  dsimp only
  sl_unfold_words
  rw [View.canon_unit_zero hz2]
  simp only [View.readAt_eq_ld, h3.read_unread, h4.read_unread, h5.read_unread, h6.read_unread, h8.read_unread,
    View.ld_unit_zero (S := S1x1024x2048) hz3, View.ld_unit_zero (S := S1x2048x256) hz3,
    View.ld_unit_zero (S := S1x256x2048) hz3, View.ld_unit_zero (S := S1024x2048) hz2]

/-- and there the output block ends at that accumulator with a leading unit axis added. -/
theorem out_last (c : Dev nD) (i : grid0.Coords) (a3 : Memref sig .tc .vmem S1x1024x2048 .bf16) (h3 : a3.IsWhole) (a4 : Memref sig .tc .vmem S1x2048x256 .bf16) (h4 : a4.IsWhole) (a5 : Memref sig .tc .vmem S1x2048x256 .bf16) (h5 : a5.IsWhole) (a6 : Memref sig .tc .vmem S1x256x2048 .bf16) (h6 : a6.IsWhole) (a7 : Memref sig .tc .vmem S1x1024x2048 .f32) (h7 : a7.IsWhole) (a8 : Memref sig .tc .vmem S1024x2048 .f32) (h8 : a8.IsWhole) (hc0 : ¬cond0_0 i) (hc1 : cond0_1 i)
    (x0 : Vec F S1x1024x2048 .bf16) (x1 : Vec F S1x2048x256 .bf16) (x2 : Vec F S1x2048x256 .bf16) (x3 : Vec F S1x256x2048 .bf16) (xs : Vec F S1024x2048 .f32) :
    out0_C_4 c i a3 h3 a4 h4 a5 h5 a6 h6 a7 h7 a8 h8 hc0 hc1 x0 x1 x2 x3 xs = k0_pay3 (step x0 x1 x2 x3 xs) := by
  unfold out0_C_4
  rw [View.read_writes_eq_canon _ _ _ (cover0_C_4 c i a3 h3 a4 h4 a5 h5 a6 h6 a7 h7 a8 h8 hc0 hc1 x0 x1 x2 x3 xs)]
  unfold kernelRun0_C
  dsimp only
  sl_unfold_words
  rw [View.canon_unit_zero hz3, View.readCov_unit_zero (S := S1024x2048) _ hz2]
  simp only [View.readAt_eq_ld, h3.read_unread, h4.read_unread, h5.read_unread, h6.read_unread, h8.read_unread,
    View.ld_unit_zero (S := S1x1024x2048) hz3, View.ld_unit_zero (S := S1x2048x256) hz3,
    View.ld_unit_zero (S := S1x256x2048) hz3, View.ld_unit_zero (S := S1024x2048) hz2]

end Cert.KernelIdeal.Carried

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.Spec.lean ====
/-
  The grouped SwiGLU layer, as one function of its four argument arrays.

  For expert `e`, token `t` and output channel `d`,

      out (e, t, d) = Σ_{h < 4096} gated (x_e,t · gw_e,·,h) (x_e,t · iw_e,·,h) · ow (e, h, d),

  where `x_e,t · w_e,·,h = Σ_{k < 2048} x (e, t, k) · w (e, k, h)` is the projection of the token onto hidden unit `h`, and
  `gated g u = g · σ(g) · u` with `σ(g) = 1 / (1 + e^(−g))` the logistic function of the extended reals.

  The hidden axis is also read in sixteen blocks of 256 consecutive units: block `s` contributes the partial sum over
  the units `256·s … 256·s + 255`, and the sixteen partial sums, added one after another starting from zero, are the
  whole sum. Only the commutativity and associativity of addition on the extended reals are used, so nothing is asked of
  the entries: they may be infinite.
-/
import Idealize.ShloMosaic.Lib.ValueIdx
import Idealize.ShloMosaic.PureOps.Ideal
import proofs.«132540_j46540265619726_1_alg».proof.Proof.LibBlockSum

noncomputable section

namespace Cert.Swiglu

open Idealize.ShloMosaic Idealize.ShloMosaic.ValueIdx Cert.LibBlockSum
open scoped BigOperators

/-- The shapes of the tokens (and of the result), of the two input projections' weights, and of the output projection's. -/
abbrev TokS : Shape := ⟨3, ![8, 2048, 2048]⟩
abbrev InS : Shape := ⟨3, ![8, 2048, 4096]⟩
abbrev OutS : Shape := ⟨3, ![8, 4096, 2048]⟩

/-- The gate: `g · σ(g) · u`. -/
def gated (g u : EReal) : EReal := g * Ideal.logistic g * u

/-- Token `(e, t)` projected onto hidden unit `h` by the weights `w`. -/
def proj (x : TokS.Idx → EReal) (w : InS.Idx → EReal) (e : Fin 8) (t : Fin 2048) (h : Fin 4096) : EReal :=
  ∑ k : Fin 2048, x (ix3 e t k) * w (ix3 e k h)

/-- The gated hidden activation of token `(e, t)` at unit `h`. -/
def hidden (x : TokS.Idx → EReal) (gw iw : InS.Idx → EReal) (e : Fin 8) (t : Fin 2048) (h : Fin 4096) : EReal :=
  gated (proj x gw e t h) (proj x iw e t h)

/-- The layer's output for token `(e, t)` at channel `d`. -/
def out (x : TokS.Idx → EReal) (gw iw : InS.Idx → EReal) (ow : OutS.Idx → EReal) (e : Fin 8) (t : Fin 2048) (d : Fin 2048) : EReal :=
  ∑ h : Fin 4096, hidden x gw iw e t h * ow (ix3 e h d)

/-- The whole result array. -/
def result (x : TokS.Idx → EReal) (gw iw : InS.Idx → EReal) (ow : OutS.Idx → EReal) : TokS.Idx → EReal :=
  fun i => out x gw iw ow (i 0) (i 1) (i 2)

/-- Hidden unit `r` of block `s` (the block number is read modulo sixteen, so that any natural names a block). -/
def unitOf (s : ℕ) (r : Fin 256) : Fin 4096 := ⟨256 * (s % 16) + r.val, by have := r.isLt; omega⟩

/-- Block `s`'s share of the output for token `(e, t)` at channel `d`. -/
def part (x : TokS.Idx → EReal) (gw iw : InS.Idx → EReal) (ow : OutS.Idx → EReal) (e : Fin 8) (t : Fin 2048) (d : Fin 2048) (s : ℕ) : EReal :=
  ∑ r : Fin 256, hidden x gw iw e t (unitOf s r) * ow (ix3 e (unitOf s r) d)

/-- The share depends on the block number modulo sixteen only. -/
theorem part_add_mul (x : TokS.Idx → EReal) (gw iw : InS.Idx → EReal) (ow : OutS.Idx → EReal) (e : Fin 8) (t : Fin 2048) (d : Fin 2048)
    (q s : ℕ) : part x gw iw ow e t d (16 * q + s) = part x gw iw ow e t d s := by
  unfold part
  have hu : ∀ r : Fin 256, unitOf (16 * q + s) r = unitOf s r := fun r => Fin.ext (by
    show 256 * ((16 * q + s) % 16) + r.val = 256 * (s % 16) + r.val
    omega)
  simp only [hu]

/-- The sixteen shares, added one after another from zero, are the output. -/
theorem zero_add_parts (x : TokS.Idx → EReal) (gw iw : InS.Idx → EReal) (ow : OutS.Idx → EReal) (e : Fin 8) (t : Fin 2048) (d : Fin 2048) :
    (0 : EReal) + ∑ s ∈ Finset.range 16, part x gw iw ow e t d s = out x gw iw ow e t d := by
  rw [zero_add]
  refine sum_range_blocks 16 256 (fun k : Fin (16 * 256) => hidden x gw iw e t k * ow (ix3 e k d)) _ fun s => ?_
  unfold part
  have hu : ∀ r : Fin 256, unitOf s.val r = blockIdx s r := fun r => Fin.ext (by
    have := s.isLt
    show 256 * (s.val % 16) + r.val = r.val + 256 * s.val
    omega)
  simp only [hu]

end Cert.Swiglu

end
-- ==== Proof.PointValue.lean ====
/-
  One grid point's arithmetic, read at an index, on the extended reals.

  At a grid point the body holds a block of 1024 tokens of one expert (all 2048 input channels), the two input
  projections' weights for one block of 256 hidden units, and the output projection's weights for the same 256 hidden
  units. It forms the two projections of every token onto the 256 units (two matrix products into zero accumulators: plain
  sums over the 2048 input channels), gates them, multiplies the gated block by the output weights (a third product: a sum
  over the 256 units) and adds the result to the accumulator. Changes of float format are the identity on the extended
  reals, and a product into a zero accumulator is the bare sum. So entry (r, d) of the updated accumulator is

      acc (r, d) + Σ_{h < 256} gated (Σ_k x (r, k) · gw (k, h)) (Σ_k x (r, k) · iw (k, h)) · ow (h, d).
-/
import proofs.«132540_j46540265619726_1_alg».proof.Proof.Gen.KernelIdeal.Skeleton
import proofs.«132540_j46540265619726_1_alg».proof.Proof.LibMatmul2d
import proofs.«132540_j46540265619726_1_alg».proof.Proof.Spec
import Idealize.ShloMosaic.Lib.Pipeline.Value
import Idealize.ShloMosaic.Lib.ValueIdx
import Idealize.ShloMosaic.PureOps.Ideal.Laws

noncomputable section

namespace Cert.KernelIdeal.PointValue

open Idealize.ShloMosaic Idealize.ShloMosaic.ValueIdx Cert.KernelIdeal Cert.KernelIdeal.Gen
open scoped BigOperators

/-- A block with a leading unit axis viewed without it: entry (i, j) of the view is entry (0, i, j) of the block. -/
theorem dropLeadingUnit {a b : ℕ} {α : Type} (v : (⟨3, ![1, a, b]⟩ : Shape).Idx → α)
    (h : (⟨3, ![1, a, b]⟩ : Shape).ShapeCasts ⟨2, ![a, b]⟩) (i : Fin a) (j : Fin b) :
    shapeCast ⟨2, ![a, b]⟩ v h (ix2 i j) = v (ix3 0 i j) := by
  rw [shapeCast_dropUnit_apply ![a, b] v h (ix2 i j)]
  congr 1
  funext ax
  match ax with
  | ⟨0, _⟩ => rfl
  | ⟨1, _⟩ => rfl
  | ⟨2, _⟩ => rfl

/-- A 1024×2048 block times a 2048×256 block into a zero accumulator, at (r, h): the sum over the 2048 input channels. -/
theorem projBlock_apply (a : FVec Ideal S1024x2048 .bf16) (b : FVec Ideal S2048x256 .bf16) (r : Fin 1024) (h : Fin 256) :
    matmul dot_S1024x2048_S2048x256_S1024x256_1_0_0_1_n_n none a b (constant S1024x256 .f32 0x00000000#32) (ix2 r h)
      = ∑ k : Fin 2048, a (ix2 r k) * b (ix2 k h) :=
  Cert.LibMatmul2d.matmul_plain_apply (M := 1024) (K := 2048) (N := 256) a b r h

/-- A 1024×256 block times a 256×2048 block into a zero accumulator, at (r, d): the sum over the 256 hidden units. -/
theorem outBlock_apply (a : FVec Ideal S1024x256 .bf16) (b : FVec Ideal S256x2048 .bf16) (r : Fin 1024) (d : Fin 2048) :
    matmul dot_S1024x256_S256x2048_S1024x2048_1_0_0_1_n_n none a b (constant S1024x2048 .f32 0x00000000#32) (ix2 r d)
      = ∑ h : Fin 256, a (ix2 r h) * b (ix2 h d) :=
  Cert.LibMatmul2d.matmul_plain_apply (M := 1024) (K := 256) (N := 2048) a b r d

/-- The zero block is zero everywhere. -/
theorem zeroBlock_apply (i : S1024x2048.Idx) : k0_pay1 (F := Ideal) i = 0 := by
  unfold k0_pay1
  rw [shapeCast_self]
  exact Ideal.ofBits_zero_f32

/-- The gated block at an index: a change of float format is the identity, the products are entrywise. -/
theorem gate_apply (g u : FVec Ideal S1024x256 .f32) (i : S1024x256.Idx) :
    (truncf .bf16 (mulf (mulf g (logistic g)) u) bitsLt_bf16_f32 : FVec Ideal S1024x256 .bf16) i
      = Cert.Swiglu.gated (g i) (u i) := rfl

/-- Entry (r, d) of the accumulator after one point's update. -/
theorem step_apply (x0 : Vec Ideal S1x1024x2048 .bf16) (x1 x2 : Vec Ideal S1x2048x256 .bf16) (x3 : Vec Ideal S1x256x2048 .bf16)
    (acc : Vec Ideal S1024x2048 .f32) (r : Fin 1024) (d : Fin 2048) :
    k0_pay2 x0 x1 x2 acc x3 (ix2 r d)
      = acc (ix2 r d) + ∑ h : Fin 256, Cert.Swiglu.gated (∑ k : Fin 2048, x0 (ix3 0 r k) * x1 (ix3 0 k h))
          (∑ k : Fin 2048, x0 (ix3 0 r k) * x2 (ix3 0 k h)) * x3 (ix3 0 h d) := by
  unfold k0_pay2
  simp only [shapeCast_self]
  rw [addf_apply, outBlock_apply]
  congr 1
  refine Finset.sum_congr rfl fun h _ => ?_
  rw [dropLeadingUnit x3 _ h d]
  congr 1
  rw [gate_apply, projBlock_apply, projBlock_apply]
  simp only [dropLeadingUnit]

end Cert.KernelIdeal.PointValue

end
-- ==== Proof.Blocks.lean ====
/-
  The blocks a grid point works on, as entries of the argument arrays.

  The grid has 8 · 2 · 16 points, walked in row-major order: point number `n` is expert `n / 32`, token half
  `(n / 16) mod 2` and hidden block `n mod 16`. At that point the token window holds tokens
  `1024·half … 1024·half + 1023` of the expert (all input channels), the two input-projection windows hold all input
  channels of hidden units `256·block … 256·block + 255`, the output-projection window holds those hidden units (all
  output channels), and the result window is the token window's place in the result. The arrays the windows range over
  are the arguments after a change of float format, which is the identity on the extended reals.
-/
import proofs.«132540_j46540265619726_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Blocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The expert of point `n`, -/
def expertOf (n : ℕ) : Fin 8 := ⟨n / 32 % 8, Nat.mod_lt _ (by decide)⟩
/-- the token that row `r` of its token block is, -/
def tokenOf (n : ℕ) (r : Fin 1024) : Fin 2048 := ⟨1024 * (n / 16 % 2) + r.val, by have := r.isLt; omega⟩
/-- and the hidden unit that entry `h` of its hidden block is. -/
def hiddenOf (n : ℕ) (h : Fin 256) : Fin 4096 := ⟨256 * (n % 16) + h.val, by have := h.isLt; omega⟩

/-- The printed index maps at every point of the grid, decided once. -/
theorem index_facts : ∀ t : Fin cfg0.N,
    win0_0.index t (0 : Fin 3) = t.val / 32 ∧ win0_0.index t (1 : Fin 3) = t.val / 16 % 2 ∧ win0_0.index t (2 : Fin 3) = 0
    ∧ win0_1.index t (0 : Fin 3) = t.val / 32 ∧ win0_1.index t (1 : Fin 3) = 0 ∧ win0_1.index t (2 : Fin 3) = t.val % 16
    ∧ win0_2.index t (0 : Fin 3) = t.val / 32 ∧ win0_2.index t (1 : Fin 3) = 0 ∧ win0_2.index t (2 : Fin 3) = t.val % 16
    ∧ win0_3.index t (0 : Fin 3) = t.val / 32 ∧ win0_3.index t (1 : Fin 3) = t.val % 16 ∧ win0_3.index t (2 : Fin 3) = 0
    ∧ win0_4.index t (0 : Fin 3) = t.val / 32 ∧ win0_4.index t (1 : Fin 3) = t.val / 16 % 2 ∧ win0_4.index t (2 : Fin 3) = 0 :=
  (by decide +kernel : ∀ t : Fin grid0.N, _)

/-- The arrays the four input windows range over are the argument arrays. -/
theorem tokens_eq (c : Dev nD) : (V m c main_v0 : S8x2048x2048.Idx → EReal) = m ((c : Thread nD τ).loc main_arg0) := by
  dsimp only [V, hostOps0]; after_results; rfl
theorem gateW_eq (c : Dev nD) : (V m c main_v1 : S8x2048x4096.Idx → EReal) = m ((c : Thread nD τ).loc main_arg2) := by
  dsimp only [V, hostOps0]; after_results; rfl
theorem innerW_eq (c : Dev nD) : (V m c main_v2 : S8x2048x4096.Idx → EReal) = m ((c : Thread nD τ).loc main_arg3) := by
  dsimp only [V, hostOps0]; after_results; rfl
theorem outW_eq (c : Dev nD) : (V m c main_v3 : S8x4096x2048.Idx → EReal) = m ((c : Thread nD τ).loc main_arg4) := by
  dsimp only [V, hostOps0]; after_results; rfl

/-- Entry (0, r, k) of the token block at point `t`. -/
theorem tokenBlock_apply (c : Dev nD) (t : Fin cfg0.N) (r : Fin 1024) (k : Fin 2048) :
    (iblk m c 0 t : Vec Ideal S1x1024x2048 .bf16) (ix3 0 r k)
      = m ((c : Thread nD τ).loc main_arg0) (ix3 (expertOf t.val) (tokenOf t.val r) k) := by
  obtain ⟨e0, e1, e2, -⟩ := index_facts t
  have hN : t.val < 256 := lt_of_lt_of_eq t.isLt (show cfg0.N = 256 from N_0)
  unfold iblk
  rw [View.read_apply]
  show V m c main_v0 _ = _
  rw [tokens_eq]
  congr 1
  funext a
  apply Fin.ext
  match a with
  | ⟨0, _⟩ => show win0_0.index t (0 : Fin 3) * 1 + 1 * 0 = t.val / 32 % 8; omega
  | ⟨1, _⟩ => show win0_0.index t (1 : Fin 3) * 1024 + 1 * r.val = 1024 * (t.val / 16 % 2) + r.val; omega
  | ⟨2, _⟩ => show win0_0.index t (2 : Fin 3) * 2048 + 1 * k.val = k.val; omega

/-- Entry (0, k, h) of the gate projection's weight block at point `t`. -/
theorem gateBlock_apply (c : Dev nD) (t : Fin cfg0.N) (k : Fin 2048) (h : Fin 256) :
    (iblk m c 1 t : Vec Ideal S1x2048x256 .bf16) (ix3 0 k h)
      = m ((c : Thread nD τ).loc main_arg2) (ix3 (expertOf t.val) k (hiddenOf t.val h)) := by
  obtain ⟨-, -, -, e0, e1, e2, -⟩ := index_facts t
  have hN : t.val < 256 := lt_of_lt_of_eq t.isLt (show cfg0.N = 256 from N_0)
  unfold iblk
  rw [View.read_apply]
  show V m c main_v1 _ = _
  rw [gateW_eq]
  congr 1
  funext a
  apply Fin.ext
  match a with
  | ⟨0, _⟩ => show win0_1.index t (0 : Fin 3) * 1 + 1 * 0 = t.val / 32 % 8; omega
  | ⟨1, _⟩ => show win0_1.index t (1 : Fin 3) * 2048 + 1 * k.val = k.val; omega
  | ⟨2, _⟩ => show win0_1.index t (2 : Fin 3) * 256 + 1 * h.val = 256 * (t.val % 16) + h.val; omega

/-- Entry (0, k, h) of the inner projection's weight block at point `t`. -/
theorem innerBlock_apply (c : Dev nD) (t : Fin cfg0.N) (k : Fin 2048) (h : Fin 256) :
    (iblk m c 2 t : Vec Ideal S1x2048x256 .bf16) (ix3 0 k h)
      = m ((c : Thread nD τ).loc main_arg3) (ix3 (expertOf t.val) k (hiddenOf t.val h)) := by
  obtain ⟨-, -, -, -, -, -, e0, e1, e2, -⟩ := index_facts t
  have hN : t.val < 256 := lt_of_lt_of_eq t.isLt (show cfg0.N = 256 from N_0)
  unfold iblk
  rw [View.read_apply]
  show V m c main_v2 _ = _
  rw [innerW_eq]
  congr 1
  funext a
  apply Fin.ext
  match a with
  | ⟨0, _⟩ => show win0_2.index t (0 : Fin 3) * 1 + 1 * 0 = t.val / 32 % 8; omega
  | ⟨1, _⟩ => show win0_2.index t (1 : Fin 3) * 2048 + 1 * k.val = k.val; omega
  | ⟨2, _⟩ => show win0_2.index t (2 : Fin 3) * 256 + 1 * h.val = 256 * (t.val % 16) + h.val; omega

/-- Entry (0, h, d) of the output projection's weight block at point `t`. -/
theorem outBlock_apply (c : Dev nD) (t : Fin cfg0.N) (h : Fin 256) (d : Fin 2048) :
    (iblk m c 3 t : Vec Ideal S1x256x2048 .bf16) (ix3 0 h d)
      = m ((c : Thread nD τ).loc main_arg4) (ix3 (expertOf t.val) (hiddenOf t.val h) d) := by
  obtain ⟨-, -, -, -, -, -, -, -, -, e0, e1, e2, -⟩ := index_facts t
  have hN : t.val < 256 := lt_of_lt_of_eq t.isLt (show cfg0.N = 256 from N_0)
  unfold iblk
  rw [View.read_apply]
  show V m c main_v3 _ = _
  rw [outW_eq]
  congr 1
  funext a
  apply Fin.ext
  match a with
  | ⟨0, _⟩ => show win0_3.index t (0 : Fin 3) * 1 + 1 * 0 = t.val / 32 % 8; omega
  | ⟨1, _⟩ => show win0_3.index t (1 : Fin 3) * 256 + 1 * h.val = 256 * (t.val % 16) + h.val; omega
  | ⟨2, _⟩ => show win0_3.index t (2 : Fin 3) * 2048 + 1 * d.val = d.val; omega

end Cert.KernelIdeal.Blocks

end
-- ==== Proof.Accumulation.lean ====
/-
  The accumulator over a run of sixteen grid points.

  The sixteen points that share an expert and a token half walk the sixteen blocks of the hidden axis. The first zeroes the
  accumulator and adds block 0's share; each later one adds its block's share to what the point before left. So after the
  run's last point entry (r, d) of the accumulator is zero plus the sixteen shares added one after another, which is the
  layer's output for token `1024·half + r` of the expert at channel `d`: the whole sum over the 4096 hidden units. At that
  last point the body also copies the accumulator into the result window's block.
-/
import proofs.«132540_j46540265619726_1_alg».proof.Proof.Gen.KernelIdeal.Value
import proofs.«132540_j46540265619726_1_alg».proof.Proof.CaseValues
import proofs.«132540_j46540265619726_1_alg».proof.Proof.PointValue
import proofs.«132540_j46540265619726_1_alg».proof.Proof.Blocks
import proofs.«132540_j46540265619726_1_alg».proof.Proof.Spec

noncomputable section

namespace Cert.KernelIdeal.Accumulation

open Idealize.ShloMosaic Idealize.ShloMosaic.TcCoe Idealize.SL.Sem Idealize.ShloMosaic.ValueIdx
open Cert.KernelIdeal Cert.KernelIdeal.Gen Cert.KernelIdeal.Blocks Cert.KernelIdeal.Carried Cert.KernelIdeal.PointValue
open scoped BigOperators

variable (m : (ℓ : Loc nD τ sig) → Buf (Elt Ideal) ℓ)

/-- The four argument arrays on device `c`, as functions of an index. -/
abbrev tokens (c : Dev nD) : S8x2048x2048.Idx → EReal := m ((c : Thread nD τ).loc main_arg0)
abbrev gateW (c : Dev nD) : S8x2048x4096.Idx → EReal := m ((c : Thread nD τ).loc main_arg2)
abbrev innerW (c : Dev nD) : S8x2048x4096.Idx → EReal := m ((c : Thread nD τ).loc main_arg3)
abbrev outW (c : Dev nD) : S8x4096x2048.Idx → EReal := m ((c : Thread nD τ).loc main_arg4)

/-- The row and the channel of an entry of the accumulator. -/
def rowOf (i : S1024x2048.Idx) : Fin 1024 := i 0
def chanOf (i : S1024x2048.Idx) : Fin 2048 := i 1

/-- What point `n` adds to entry `i` of the accumulator: its hidden block's share of the output for the token that the
    entry's row is in the point's token block, at the entry's channel. -/
def addend (c : Dev nD) (n : ℕ) (i : S1024x2048.Idx) : EReal :=
  Cert.Swiglu.part (tokens m c) (gateW m c) (innerW m c) (outW m c) (expertOf n) (tokenOf n (rowOf i)) (chanOf i) n

/-- One point's update of the accumulator adds that point's addend. -/
theorem step_point (c : Dev nD) (t : Fin cfg0.N) (acc : Vec Ideal S1024x2048 .f32) (i : S1024x2048.Idx) :
    step (iblk m c 0 t) (iblk m c 1 t) (iblk m c 2 t) (iblk m c 3 t) acc i = acc i + addend m c t.val i := by
  obtain ⟨r, d, rfl⟩ : ∃ (r : Fin 1024) (d : Fin 2048), i = ix2 r d := ⟨i 0, i 1, eq_ix2 i⟩
  refine (step_apply (iblk m c 0 t) (iblk m c 1 t) (iblk m c 2 t) (iblk m c 3 t) acc r d).trans ?_
  refine congrArg (fun z => acc (ix2 r d) + z) ?_
  unfold addend Cert.Swiglu.part Cert.Swiglu.hidden Cert.Swiglu.proj
  refine Finset.sum_congr rfl fun h _ => ?_
  simp only [tokenBlock_apply, gateBlock_apply, innerBlock_apply, Blocks.outBlock_apply]
  rfl

/-- What the first point of a run leaves in the accumulator: zero plus its addend; -/
theorem first_point (c : Dev nD) (n : ℕ) (hn : n < cfg0.N) (h0 : n % 16 = 0) (junk : Vec Ideal S1024x2048 .f32) (i : S1024x2048.Idx) :
    Value.scAt0_0 m c n hn junk i = 0 + addend m c n i := by
  have h1 : ¬n % 16 = 15 := by omega
  unfold Value.scAt0_0
  rw [dif_pos h0, dif_neg h1, acc_first]
  refine (step_point m c ⟨n, hn⟩ zeroAcc i).trans ?_
  exact congrArg (fun z => z + addend m c n i) (zeroBlock_apply i)

/-- and what a later point of the run leaves: what the point before left plus its addend. -/
theorem later_point (c : Dev nD) (n : ℕ) (hn : n < cfg0.N) (h0 : ¬n % 16 = 0) (acc : Vec Ideal S1024x2048 .f32) (i : S1024x2048.Idx) :
    Value.scAt0_0 m c n hn acc i = acc i + addend m c n i := by
  unfold Value.scAt0_0
  rw [dif_neg h0]
  by_cases h1 : n % 16 = 15
  · rw [dif_pos h1, acc_last]
    exact step_point m c ⟨n, hn⟩ acc i
  · rw [dif_neg h1, acc_middle]
    exact step_point m c ⟨n, hn⟩ acc i

/-- After the last point of a run the accumulator holds the layer's output for the run's expert and token block. -/
theorem acc_after_run (c : Dev nD) (t : Fin cfg0.N) (h15 : t.val % 16 = 15) (i : S1024x2048.Idx) :
    (outsAt0 m c t.val t.isLt).2 i
      = Cert.Swiglu.out (tokens m c) (gateW m c) (innerW m c) (outW m c) (expertOf t.val) (tokenOf t.val (rowOf i)) (chanOf i) := by
  have hN : t.val < 256 := lt_of_lt_of_eq t.isLt (show cfg0.N = 256 from N_0)
  rw [Value.soutsAt0_0_eq m c t]
  refine (Pipeline.accAt_add_apply (fun n h => Value.scAt0_0 m c n h (VS0_0.read (Elt Ideal) VS0_0.junk)) (Value.scAt0_0 m c)
    (fun _ => (0 : EReal)) (addend m c) (16 * (t.val / 16)) 15
    (fun h i => first_point m c _ h (by omega) _ i)
    (fun n h acc i hb he => later_point m c n h (by omega) acc i)
    (t.val % 16) (by omega) _ i).trans ?_
  refine Eq.trans ?_ (Cert.Swiglu.zero_add_parts (tokens m c) (gateW m c) (innerW m c) (outW m c) (expertOf t.val)
    (tokenOf t.val (rowOf i)) (chanOf i))
  refine congrArg (fun z => (0 : EReal) + z) ?_
  rw [h15]
  refine Finset.sum_congr rfl fun s hs => ?_
  have hs' : s < 16 := Finset.mem_range.mp hs
  have he : expertOf (16 * (t.val / 16) + s) = expertOf t.val := Fin.ext (by
    show (16 * (t.val / 16) + s) / 32 % 8 = t.val / 32 % 8
    omega)
  have ht : tokenOf (16 * (t.val / 16) + s) (rowOf i) = tokenOf t.val (rowOf i) := Fin.ext (by
    show 1024 * ((16 * (t.val / 16) + s) / 16 % 2) + (rowOf i).val = 1024 * (t.val / 16 % 2) + (rowOf i).val
    omega)
  unfold addend
  rw [Cert.Swiglu.part_add_mul, he, ht]

/-- At the last point of a run the result window's block is the accumulator with a leading unit axis. -/
theorem out_after_run (c : Dev nD) (t : Fin cfg0.N) (h15 : t.val % 16 = 15) :
    (outsAt0 m c t.val t.isLt).1 = k0_pay3 ((outsAt0 m c t.val t.isLt).2) := by
  have h0 : ¬t.val % 16 = 0 := by omega
  rw [outsAt0_C m c t h0 h15]
  dsimp only
  rw [out_last, acc_last]

end Cert.KernelIdeal.Accumulation

end
-- ==== Proof.KernelResult.lean ====
/-
  The result array after the kernel's run.

  The result window is written back at the last point of each run of sixteen points, and only there. What is written
  is the accumulator after the run — the layer's output for the run's expert and its 1024 tokens — laid out as the block
  [expert, 1024·half … 1024·half + 1023, all channels] of the result. The 16 runs' blocks (8 experts, 2 token halves)
  tile the result array, so after the whole run every entry of the result is the layer's output at that entry.
-/
import proofs.«132540_j46540265619726_1_alg».proof.Proof.Accumulation

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accumulation

variable (m : (ℓ : Loc nD τ sig) → Buf (Elt Ideal) ℓ) (ρ : Dev nD → PrngReg)

/-- The layer's output for the argument arrays on device `c`, as contents of the result array. -/
abbrev result (c : Dev nD) : Buf (Elt Ideal) ((c : Thread nD τ).loc main_v4) :=
  Cert.Swiglu.result (tokens m c) (gateW m c) (innerW m c) (outW m c)

/-- The output at equal coordinates is equal. -/
theorem out_congr (c : Dev nD) {e e' : Fin 8} {t t' : Fin 2048} {d d' : Fin 2048} (he : e = e') (ht : t = t') (hd : d = d') :
    Cert.Swiglu.out (tokens m c) (gateW m c) (innerW m c) (outW m c) e t d
      = Cert.Swiglu.out (tokens m c) (gateW m c) (innerW m c) (outW m c) e' t' d' := by
  subst he ht hd; rfl

/-- What a writing point writes back is its block of the layer's output. -/
theorem flushed_eq (c : Dev nD) (t : Fin cfg0.N) (hf : (cfg0.win 4).flush t = true) :
    (dats m 0 c).flushed 4 t = ((cfg0.win 4).blk t).view.read (Elt Ideal) (result m c) := by
  have h15 : t.val % 16 = 15 := (flush0_4 t).mp hf
  have hN : t.val < 256 := lt_of_lt_of_eq t.isLt (show cfg0.N = 256 from N_0)
  obtain ⟨-, -, -, -, -, -, -, -, -, -, -, -, e0, e1, e2⟩ := index_facts t
  rw [Value.flushed4, out_after_run m c t h15]
  funext j
  show k0_pay3 ((outsAt0 m c t.val t.isLt).2) j = result m c (((cfg0.win 4).blk t).view.emb j)
  unfold k0_pay3
  rw [shapeCast_addUnit_apply ![1024, 2048] _ _ j]
  refine (acc_after_run m c t h15 _).trans ?_
  have hj0 : (j 0).val < 1 := (j 0).isLt
  show Cert.Swiglu.out _ _ _ _ _ _ _ = Cert.Swiglu.out _ _ _ _ (((cfg0.win 4).blk t).view.emb j 0)
    (((cfg0.win 4).blk t).view.emb j 1) (((cfg0.win 4).blk t).view.emb j 2)
  refine out_congr m c (Fin.ext ?_) (Fin.ext ?_) (Fin.ext ?_)
  · show t.val / 32 % 8 = win0_4.index t (0 : Fin 3) * 1 + 1 * (j 0).val
    omega
  · show 1024 * (t.val / 16 % 2) + (j 1).val = win0_4.index t (1 : Fin 3) * 1024 + 1 * (j 1).val
    omega
  · show (j 2).val = win0_4.index t (2 : Fin 3) * 2048 + 1 * (j 2).val
    omega

/-- An entry of the result is in point `t`'s block iff each coordinate is in the block's range on its axis. -/
theorem mem_block (t : Fin cfg0.N) (i : S8x2048x2048.Idx) :
    i ∈ ((cfg0.win 4).blk t).view.set ↔ ∀ a : Fin 3, win0_4.index t a * S1x1024x2048.size a ≤ (i a).val
      ∧ (i a).val < win0_4.index t a * S1x1024x2048.size a + S1x1024x2048.size a := by
  show i ∈ ((View.whole main_v4).slice (win0_4.rect t)).set ↔ _
  rw [View.set_slice_whole, Rect.mem_set_unit]
  exact Iff.rfl

/-- Every entry of the result is in the block of a writing point: the last point of its expert's and token half's run. -/
theorem cover (i : S8x2048x2048.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 2048 := (i 2).isLt
  have hN : cfg0.N = 256 := N_0
  obtain ⟨t, ht⟩ : ∃ t : Fin cfg0.N, t.val = 32 * (i 0).val + 16 * ((i 1).val / 1024) + 15 :=
    ⟨⟨32 * (i 0).val + 16 * ((i 1).val / 1024) + 15, by rw [hN]; omega⟩, rfl⟩
  obtain ⟨-, -, -, -, -, -, -, -, -, -, -, -, e0, e1, e2⟩ := index_facts t
  refine ⟨t, (flush0_4 t).mpr (by omega), ?_⟩
  rw [mem_block]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 2048 ≤ (i 2).val ∧ (i 2).val < win0_4.index t (2 : Fin 3) * 2048 + 2048
    omega

/-- So the result array ends holding the layer's output. -/
theorem final (c : Dev nD) : (dats m 0 c).arrAt 4 cfg0.N = result m c :=
  (dats m 0 c).arrAt_eq_of_cover 4 (result m c) (flushed_eq m c) cover

/-- The kernel's run: it terminates without a fault, the result array at the layer's output of the arguments, the arguments
    unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.RefValue.lean ====
/-
  The reference program computes the layer's specification.

  The reference contracts the tokens with the two input projections' weights (two batched products over the 2048 input
  channels, one batch per expert), applies `g ↦ g · (1 / (1 + e^(−g)))` to the first, multiplies by the second, and
  contracts the result with the output projection's weights over the 4096 hidden units. On the extended reals each
  batched product is, entry by entry, the sum over the contracted axis; the word for 1.0 is the number one; and
  `1 / (1 + e^(−g))` is the logistic function by its definition, at every extended real. So the reference's result is the
  specification's function of the four arguments, with no condition on them.
-/
import proofs.«132540_j46540265619726_1_alg».proof.Proof.Gen.ReferenceIdeal.Read
import proofs.«132540_j46540265619726_1_alg».proof.Proof.Spec
import Idealize.ShloMosaic.Lib.IdealHost

noncomputable section

namespace Cert.ReferenceIdeal.RefValue

open Idealize.ShloMosaic Idealize.ShloMosaic.ValueIdx Cert.ReferenceIdeal Cert.ReferenceIdeal.Read
open scoped BigOperators

/-- The expansion of the logistic function into negate, exponential, add and divide is the logistic function. -/
theorem expanded_logistic (g : EReal) :
    Ideal.div (Ideal.ofBits .f32 0x3F800000#32) (Ideal.ofBits .f32 0x3F800000#32 + Ideal.exp (-g)) = Ideal.logistic g := by
  rw [Ideal.ofBits_one_f32]
  rfl

/-- The gated hidden activation, as the reference computes it, at token (e, t) and hidden unit h. -/
theorem hidden_eq (x0 : (⟨S8x2048x2048, .f32⟩ : BufTy).Contents (Elt Ideal)) (x2 x3 : (⟨S8x2048x4096, .f32⟩ : BufTy).Contents (Elt Ideal))
    (e : Fin 8) (t : Fin 2048) (h : Fin 4096) :
    val_main_v3 (F := Ideal) x0 x2 x3 (ix3 e t h) = Cert.Swiglu.hidden x0 x2 x3 e t h := by
  have el0 : ∀ k : Fin 2048, lidx_main_v0 (ix3 e t h) k = ix3 e t k := fun k => funext fun a => Fin.ext (by
    match a with
    | ⟨0, _⟩ => rfl
    | ⟨1, _⟩ => rfl
    | ⟨2, _⟩ => rfl)
  have er0 : ∀ k : Fin 2048, ridx_main_v0 (ix3 e t h) k = ix3 e k h := fun k => funext fun a => Fin.ext (by
    match a with
    | ⟨0, _⟩ => rfl
    | ⟨1, _⟩ => rfl
    | ⟨2, _⟩ => rfl)
  have el2 : ∀ k : Fin 2048, lidx_main_v2 (ix3 e t h) k = ix3 e t k := fun k => funext fun a => Fin.ext (by
    match a with
    | ⟨0, _⟩ => rfl
    | ⟨1, _⟩ => rfl
    | ⟨2, _⟩ => rfl)
  have er2 : ∀ k : Fin 2048, ridx_main_v2 (ix3 e t h) k = ix3 e k h := fun k => funext fun a => Fin.ext (by
    match a with
    | ⟨0, _⟩ => rfl
    | ⟨1, _⟩ => rfl
    | ⟨2, _⟩ => rfl)
  rw [val_main_v3_apply, val_main_v1_apply, val_main_call0_v5_apply, val_main_call0_v3_apply, val_main_call0_v1_apply,
    val_main_call0_v0_apply, val_main_call0_v4_apply, val_main_call0_v2_apply, val_main_call0_cst_0_apply,
    val_main_call0_cst_apply, val_main_v0_apply, val_main_v2_apply]
  simp only [el0, er0, el2, er2, Ideal.mulf_def, Ideal.hostDivf_def, Ideal.addf_def, Ideal.hostUnary_exp_def,
    Ideal.hostNegf_def, Ideal.negf_def, Ideal.ofBits_def, expanded_logistic]
  rfl

/-- The reference's result array is the specification's. -/
theorem result_eq (x0 : (⟨S8x2048x2048, .f32⟩ : BufTy).Contents (Elt Ideal)) (x2 x3 : (⟨S8x2048x4096, .f32⟩ : BufTy).Contents (Elt Ideal))
    (x4 : (⟨S8x4096x2048, .f32⟩ : BufTy).Contents (Elt Ideal)) :
    val_main_v4 (F := Ideal) x0 x2 x3 x4 = Cert.Swiglu.result x0 x2 x3 x4 := by
  funext i
  obtain ⟨e, t, d, rfl⟩ : ∃ (e : Fin 8) (t : Fin 2048) (d : Fin 2048), i = ix3 e t d := ⟨i 0, i 1, i 2, eq_ix3 i⟩
  rw [val_main_v4_apply]
  show _ = Cert.Swiglu.out x0 x2 x3 x4 e t d
  unfold Cert.Swiglu.out
  refine Finset.sum_congr rfl fun h _ => ?_
  have el : lidx_main_v4 (ix3 e t d) h = ix3 e t h := funext fun a => Fin.ext (by
    match a with
    | ⟨0, _⟩ => rfl
    | ⟨1, _⟩ => rfl
    | ⟨2, _⟩ => rfl)
  have er : ridx_main_v4 (ix3 e t d) h = ix3 e h d := funext fun a => Fin.ext (by
    match a with
    | ⟨0, _⟩ => rfl
    | ⟨1, _⟩ => rfl
    | ⟨2, _⟩ => rfl)
  rw [el, er, hidden_eq]

end Cert.ReferenceIdeal.RefValue

end
-- ==== Proof.lean ====
/-
  A grouped SwiGLU layer computed block by block on the matrix unit equals its plain description.

  The kernel takes eight experts' tokens x (2048 tokens of 2048 channels each) and three weight arrays per expert, and
  computes, for every expert e, token t and output channel d,

      out (e, t, d) = Σ_{h < 4096} g · σ(g) · u · ow (e, h, d),   g = Σ_k x (e, t, k) · gw (e, k, h),   u = Σ_k x (e, t, k) · iw (e, k, h),

  with σ the logistic function. It does so on a grid of 8 · 2 · 16 points: a point holds 1024 tokens of one expert and one
  block of 256 hidden units, adds that block's share to an accumulator carried across the sixteen points of a run, and
  writes the accumulator out at the run's last point. The reference computes the same quantity with three whole
  contractions and the logistic function spelled as 1 / (1 + e^(−g)).

  On the extended reals both are the specification's function (Spec.lean) of the four arguments:
    · a change of float format is the identity, and a matrix product into a zero accumulator is the bare sum;
    · the kernel's logistic and the reference's 1 / (1 + e^(−g)) are one function by definition, infinities included;
    · zero plus the sixteen blocks' partial sums, added one after another, is the sum over all 4096 hidden units — by
      commutativity and associativity of addition alone, so the finiteness of the inputs is never used.
  The kernel's side is read off its run: what each control case leaves (CaseValues.lean), one point's arithmetic at an
  index (PointValue.lean), the point's blocks as entries of the arguments (Blocks.lean), the run's fold (Accumulation.lean)
  and the blocks written back tiling the result (KernelResult.lean). The reference's side is its composed term read one
  operation at a time (RefValue.lean). The three programs' frames are their runs with the result forgotten, and the
  idealization rewrote nothing, so there is nothing to preserve.
-/
import proofs.«132540_j46540265619726_1_alg».proof.Defs
import proofs.«132540_j46540265619726_1_alg».proof.Proof.Gen.Kernel
import proofs.«132540_j46540265619726_1_alg».proof.Proof.Gen.Kernel.Skeleton
import proofs.«132540_j46540265619726_1_alg».proof.Proof.Gen.Kernel.Launch
import proofs.«132540_j46540265619726_1_alg».proof.Proof.Gen.Kernel.Points
import proofs.«132540_j46540265619726_1_alg».proof.Proof.Gen.Kernel.Frame
import proofs.«132540_j46540265619726_1_alg».proof.Proof.Gen.KernelIdeal
import proofs.«132540_j46540265619726_1_alg».proof.Proof.Gen.KernelIdeal.Skeleton
import proofs.«132540_j46540265619726_1_alg».proof.Proof.Gen.KernelIdeal.Launch
import proofs.«132540_j46540265619726_1_alg».proof.Proof.Gen.KernelIdeal.Points
import proofs.«132540_j46540265619726_1_alg».proof.Proof.Gen.KernelIdeal.Frame
import proofs.«132540_j46540265619726_1_alg».proof.Proof.Gen.KernelIdeal.Value
import proofs.«132540_j46540265619726_1_alg».proof.Proof.Gen.ReferenceIdeal
import proofs.«132540_j46540265619726_1_alg».proof.Proof.Gen.ReferenceIdeal.Run
import proofs.«132540_j46540265619726_1_alg».proof.Proof.Gen.ReferenceIdeal.Read
import proofs.«132540_j46540265619726_1_alg».proof.Proof.Gen.Pre_finite_inputs
import proofs.«132540_j46540265619726_1_alg».proof.Proof.KernelResult
import proofs.«132540_j46540265619726_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on the arguments, the kernel's result array and the reference's both end
    at the layer's output of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, (hagree c).1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
